-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S50000x1 : Shape := ⟨2, ![50000, 1]⟩
abbrev S512x128 : Shape := ⟨2, ![512, 128]⟩
abbrev S128x40 : Shape := ⟨2, ![128, 40]⟩
abbrev S800000 : Shape := ⟨1, ![800000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S50000x1 : S_.BroadcastsInDim S50000x1 (![] : Fin 0 → Fin S50000x1.rank)
  reducesTo_S50000x1_S_d0_1 : S50000x1.ReducesTo [0, 1] S_
  bcast_S_S512x128 : S_.BroadcastsInDim S512x128 (![] : Fin 0 → Fin S512x128.rank)
  reducesTo_S512x128_S_d0_1 : S512x128.ReducesTo [0, 1] S_
  bcast_S_S128x40 : S_.BroadcastsInDim S128x40 (![] : Fin 0 → Fin S128x40.rank)
  reducesTo_S128x40_S_d0_1 : S128x40.ReducesTo [0, 1] S_

variable [Facts]

def fn_part1 {F : FTy → Type} [FloatOps F] (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  main_v18

def fn {F : FTy → Type} [FloatOps F] (main_arg0 : FVec F S50000x512 .f32) (main_arg1 : FVec F S50000x1 .f32) (main_arg2 : FVec F S512x128 .f32) (main_arg3 : FVec F S128x40 .f32) (main_arg4 : IVec S800000 32) (main_arg5 : IVec S800000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S50000x1 .f32 := Host.absf main_arg1
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128x40 .f32 := Host.absf main_arg3
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_v13 main_v16
-- ==== Kernel.lean ====
abbrev S50000x512 : Shape := ⟨2, ![50000, 512]⟩
abbrev S50000x1 : Shape := ⟨2, ![50000, 1]⟩
abbrev S512x128 : Shape := ⟨2, ![512, 128]⟩
abbrev S128x40 : Shape := ⟨2, ![128, 40]⟩
abbrev S800000 : Shape := ⟨1, ![800000]⟩
abbrev S50000x128 : Shape := ⟨2, ![50000, 128]⟩
abbrev S2000x512 : Shape := ⟨2, ![2000, 512]⟩
abbrev S2000x1 : Shape := ⟨2, ![2000, 1]⟩
abbrev S2000x128 : Shape := ⟨2, ![2000, 128]⟩
abbrev S_ : Shape := ⟨0, ![]⟩
abbrev S800000x1 : Shape := ⟨2, ![800000, 1]⟩
abbrev S800000x128 : Shape := ⟨2, ![800000, 128]⟩
abbrev S50000x40 : Shape := ⟨2, ![50000, 40]⟩
abbrev S2000x40 : Shape := ⟨2, ![2000, 40]⟩
abbrev S800000x40 : Shape := ⟨2, ![800000, 40]⟩

abbrev nBuf : Space → Nat
  | .hbm => 36
  | .vmem => 14
  | .smem => 0
  | _ => 0

abbrev bufTy : (tb : Table) → Fin (tcTables nBuf tb) → BufTy
  | .hbm, ⟨0, _⟩ => ⟨S50000x512, .f32⟩
  | .hbm, ⟨1, _⟩ => ⟨S50000x1, .f32⟩
  | .hbm, ⟨2, _⟩ => ⟨S512x128, .f32⟩
  | .hbm, ⟨3, _⟩ => ⟨S128x40, .f32⟩
  | .hbm, ⟨4, _⟩ => ⟨S800000, .i32⟩
  | .hbm, ⟨5, _⟩ => ⟨S800000, .i32⟩
  | .hbm, ⟨6, _⟩ => ⟨S50000x128, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S_, .f32⟩
  | .hbm, ⟨17, _⟩ => ⟨S50000x128, .f32⟩
  | .hbm, ⟨18, _⟩ => ⟨S800000x1, .i32⟩
  | .hbm, ⟨19, _⟩ => ⟨S50000x128, .f32⟩
  | .hbm, ⟨20, _⟩ => ⟨S50000x40, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x40, .f32⟩
  | .hbm, ⟨30, _⟩ => ⟨S_, .f32⟩
  | .hbm, ⟨31, _⟩ => ⟨S50000x40, .f32⟩
  | .hbm, ⟨32, _⟩ => ⟨S800000x1, .i32⟩
  | .hbm, ⟨33, _⟩ => ⟨S50000x40, .f32⟩
  | .hbm, ⟨34, _⟩ => ⟨S50000x40, .f32⟩
  | .hbm, ⟨35, _⟩ => ⟨S50000x40, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x1, .f32⟩
  | .local _ .vmem, ⟨4, _⟩ => ⟨S2000x1, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S128x40, .f32⟩
  | .local _ .vmem, ⟨10, _⟩ => ⟨S2000x1, .f32⟩
  | .local _ .vmem, ⟨11, _⟩ => ⟨S2000x1, .f32⟩
  | .local _ .vmem, ⟨12, _⟩ => ⟨S2000x40, .f32⟩
  | .local _ .vmem, ⟨13, _⟩ => ⟨S2000x40, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x1_S2000x1_0_0 : ∀ a, (![0, 0] : Fin 2 → Nat) a + S2000x1.size a ≤ S2000x1.size a
  h_S2000x1 : 0 < S2000x1.numel
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S2000x128_S2000x128 : S2000x128.ShapeCasts S2000x128
  inb_S128x40_S128x40_0_0 : ∀ a, (![0, 0] : Fin 2 → Nat) a + S128x40.size a ≤ S128x40.size a
  h_S128x40 : 0 < S128x40.numel
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  bcast_S_S50000x40 : S_.BroadcastsInDim S50000x40 (![] : Fin 0 → Fin S50000x40.rank)
  bcast_S50000x1_S50000x40_0_1 : S50000x1.BroadcastsInDim S50000x40 (![0, 1] : Fin 2 → Fin S50000x40.rank)
  dot_S2000x512_S512x128_S2000x128_1_0_0_1_n_n_wf : DotDims.WF S2000x512 S512x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x40_S2000x40_1_0_0_1_n_n_wf : DotDims.WF S2000x128 S128x40 S2000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x40.size a ≤ S128x40.size a
  hwx1_1 : ∀ i : grid1.Coords, EltTy.bits .f32 = 32 ∨ (Rect.block (s := S128x40) S128x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x40.size a ≤ S50000x40.size a
  hwx1_3 : ∀ i : grid1.Coords, EltTy.bits .f32 = 32 ∨ (Rect.block (s := S50000x40) S2000x40.size (cc1_transform_3 i) (hinb1_3 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S2000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x512 : Shape := ⟨2, ![50000, 512]⟩
abbrev S50000x1 : Shape := ⟨2, ![50000, 1]⟩
abbrev S512x128 : Shape := ⟨2, ![512, 128]⟩
abbrev S128x40 : Shape := ⟨2, ![128, 40]⟩
abbrev S800000 : Shape := ⟨1, ![800000]⟩
abbrev S50000x128 : Shape := ⟨2, ![50000, 128]⟩
abbrev S_ : Shape := ⟨0, ![]⟩
abbrev S800000x1 : Shape := ⟨2, ![800000, 1]⟩
abbrev S800000x128 : Shape := ⟨2, ![800000, 128]⟩
abbrev S50000x40 : Shape := ⟨2, ![50000, 40]⟩
abbrev S800000x40 : Shape := ⟨2, ![800000, 40]⟩

abbrev nBuf : Space → Nat
  | .hbm => 45
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S50000x1, .f32⟩
  | .hbm, ⟨2, _⟩ => ⟨S512x128, .f32⟩
  | .hbm, ⟨3, _⟩ => ⟨S128x40, .f32⟩
  | .hbm, ⟨4, _⟩ => ⟨S800000, .i32⟩
  | .hbm, ⟨5, _⟩ => ⟨S800000, .i32⟩
  | .hbm, ⟨6, _⟩ => ⟨S50000x128, .f32⟩
  | .hbm, ⟨7, _⟩ => ⟨S50000x128, .f32⟩
  | .hbm, ⟨8, _⟩ => ⟨S50000x128, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S50000x128, .f32⟩
  | .hbm, ⟨23, _⟩ => ⟨S50000x128, .f32⟩
  | .hbm, ⟨24, _⟩ => ⟨S_, .f32⟩
  | .hbm, ⟨25, _⟩ => ⟨S50000x128, .f32⟩
  | .hbm, ⟨26, _⟩ => ⟨S50000x128, .f32⟩
  | .hbm, ⟨27, _⟩ => ⟨S50000x40, .f32⟩
  | .hbm, ⟨28, _⟩ => ⟨S50000x40, .f32⟩
  | .hbm, ⟨29, _⟩ => ⟨S50000x40, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x40, .f32⟩
  | .hbm, ⟨39, _⟩ => ⟨S_, .f32⟩
  | .hbm, ⟨40, _⟩ => ⟨S50000x40, .f32⟩
  | .hbm, ⟨41, _⟩ => ⟨S800000x1, .i32⟩
  | .hbm, ⟨42, _⟩ => ⟨S50000x40, .f32⟩
  | .hbm, ⟨43, _⟩ => ⟨S50000x40, .f32⟩
  | .hbm, ⟨44, _⟩ => ⟨S50000x40, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_cst : Ref sig .tc := ⟨.hbm, 24, rfl⟩
abbrev main_call0_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_1 : Ref sig .tc := ⟨.hbm, 30, rfl⟩
abbrev main_v19 : Ref sig .tc := ⟨.hbm, 31, rfl⟩
abbrev main_v20 : Ref sig .tc := ⟨.hbm, 32, rfl⟩
abbrev main_c_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]

class Facts₀ : Prop where
  bcast_S50000x1_S50000x128_0_1 : S50000x1.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000x1_S50000x40_0_1 : S50000x1.BroadcastsInDim S50000x40 (![0, 1] : Fin 2 → Fin S50000x40.rank)
  bcast_S_S50000x40 : S_.BroadcastsInDim S50000x40 (![] : Fin 0 → Fin S50000x40.rank)
  dot_S50000x512_S512x128_S50000x128_1_0_0_1_n_n_wf : DotDims.WF S50000x512 S512x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x40_S50000x40_1_0_0_1_n_n_wf : DotDims.WF S50000x128 S128x40 S50000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

class Facts : Prop extends Facts₀ where

variable [Facts]
-- ==== Proof.Ends.lean ====
/-
  The run of the whole program with its result named. The program is four stretches in a row — the first region, the
  host operations up to the second region, the second region, the host operations after it — and the buffers' contents
  at the boundaries are a fold from the launch memory: a region leaves each of its arrays at what its write-backs make
  of it and every other buffer alone, a host stretch leaves what its operations compute. Every weakly fair execution
  terminates with every buffer at the last boundary's contents; read at the result buffer and at the six arguments this
  is the statement below.
-/
import proofs.«119521_j8581344658003_1_alg».proof.Proof.Gen.KernelIdeal.Frame

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the argument arrays as launched. -/
theorem ends : θ_run defs (onTc (τ := τ) (main (F := F))) ⟨m, fun _ => 0, ρ⟩ (fun r => ∀ c : Dev nD,
      r.2.mem ((c.tc : Thread nD τ).loc main_v23) = W4 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v23 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Gcn

end
-- ==== Proof.LibHostKeeps.lean ====
/-
  A host stretch leaves alone every buffer none of its operations writes: the fold of the stretch over the memory, read
  at such a buffer, is the memory there. The tactic below closes that goal for a literal stretch and a literal buffer,
  one inequality of references per operation.
-/
import Idealize.ShloMosaic.Lib.StableHlo.Run

open Idealize.ShloMosaic

/-- Closes `StableHlo.after ops W b = W b` when no operation of the literal list `ops` writes the literal buffer `b`. -/
macro "host_keeps" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))
-- ==== Proof.Layers.lean ====
/-
  The two dense layers of the network, index by index over the extended reals, and what each kernel body makes of the
  blocks it loads.

  Layer one, at node r and hidden unit j:   (Σ_k X[r,k] · W[k,j]) · n[r].
  Layer two, at node r and class j:         (Σ_k max(A[r,k] · n[r], 0) · W[k,j]) · n[r].

  Row r of a matrix product depends on row r of the left factor alone, and the normaliser n[r] on row r alone, so a
  block of consecutive rows of either layer is the same formula of that block of rows of X (or A) and of n, and of the
  whole of W. The two lemmas `rows1_apply` and `rows2_apply` say this of the bodies' stored values: a matrix product
  into a zero accumulator is the plain sum over the contracted axis, the change of float format is the identity on the
  extended reals, and the column n[r] broadcast along a row reads n[r] at every column.
-/
import proofs.«119521_j8581344658003_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Gcn

open Idealize.ShloMosaic Idealize.ShloMosaic.ValueIdx Cert.KernelIdeal Cert.KernelIdeal.Gen
open scoped BigOperators

/-! ## The layers -/

/-- Layer one: the features times the first weights, each row scaled by its node's normaliser. -/
def lin1 (X : S50000x512.Idx → EReal) (W : S512x128.Idx → EReal) (n : S50000x1.Idx → EReal) : S50000x128.Idx → EReal :=
  fun i => (∑ k : Fin 512, X (ix2 (i 0) k) * W (ix2 k (i 1))) * n (ix2 (i 0) (0 : Fin 1))

/-- Layer two: the aggregated hidden rows, scaled, clipped below at zero, times the second weights, scaled again. -/
def lin2 (A : S50000x128.Idx → EReal) (W : S128x40.Idx → EReal) (n : S50000x1.Idx → EReal) : S50000x40.Idx → EReal :=
  fun i => (∑ k : Fin 128, max (A (ix2 (i 0) k) * n (ix2 (i 0) (0 : Fin 1))) 0 * W (ix2 k (i 1))) * n (ix2 (i 0) (0 : Fin 1))

/-! ## A product of a block of rows, at one entry -/

/-- The left operand's row coordinate at an output entry is the entry's row. -/
theorem lrow1 (i : S2000x128.Idx) (c : dot_S2000x512_S512x128_S2000x128_1_0_0_1_n_n.contr.Idx) : (dot_S2000x512_S512x128_S2000x128_1_0_0_1_n_n.lhsIdx i c 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
/-- The right operand's column coordinate at an output entry is the entry's column. -/
theorem rcol1 (i : S2000x128.Idx) (c : dot_S2000x512_S512x128_S2000x128_1_0_0_1_n_n.contr.Idx) : (dot_S2000x512_S512x128_S2000x128_1_0_0_1_n_n.rhsIdx i c 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- The left operand's row coordinate at an output entry is the entry's row. -/
theorem lrow2 (i : S2000x40.Idx) (c : dot_S2000x128_S128x40_S2000x40_1_0_0_1_n_n.contr.Idx) : (dot_S2000x128_S128x40_S2000x40_1_0_0_1_n_n.lhsIdx i c 0).val = (i 0).val := by
  unfold DotDims.lhsIdx
  rw [dif_neg (show ¬(0 : Fin S2000x128.rank) ∈ dot_S2000x128_S128x40_S2000x40_1_0_0_1_n_n.lhsBatch by decide), dif_pos (show (0 : Fin S2000x128.rank) ∈ dot_S2000x128_S128x40_S2000x40_1_0_0_1_n_n.lhsNonContracting by decide)]
  rfl
/-- The right operand's column coordinate at an output entry is the entry's column. -/
theorem rcol2 (i : S2000x40.Idx) (c : dot_S2000x128_S128x40_S2000x40_1_0_0_1_n_n.contr.Idx) : (dot_S2000x128_S128x40_S2000x40_1_0_0_1_n_n.rhsIdx i c 1).val = (i 1).val := by
  unfold DotDims.rhsIdx
  rw [dif_neg (show ¬(1 : Fin S128x40.rank) ∈ dot_S2000x128_S128x40_S2000x40_1_0_0_1_n_n.rhsBatch by decide), dif_pos (show (1 : Fin S128x40.rank) ∈ dot_S2000x128_S128x40_S2000x40_1_0_0_1_n_n.rhsNonContracting by decide)]
  rfl

/-- A 2000 × 512 block times the 512 × 128 weights, into zero, at entry (p, q): the sum over the 512 shared indices. -/
theorem prod1_apply (a : FVec Ideal S2000x512 .bf16) (b : FVec Ideal S512x128 .bf16) (p : Fin 2000) (q : Fin 128) :
    FloatOps.matmul dot_S2000x512_S512x128_S2000x128_1_0_0_1_n_n none a b (constant S2000x128 .f32 0x00000000#32) (ix2 p q)
      = ∑ k : Fin 512, a (ix2 p k) * b (ix2 k q) := by
  rw [Ideal.matmul_constant_zero_apply, ← Equiv.sum_comp (contrEquiv1 dot_S2000x512_S512x128_S2000x128_1_0_0_1_n_n 512 rfl rfl).symm]
  refine Finset.sum_congr rfl fun k _ => ?_
  have hk := contrEquiv1_symm_val dot_S2000x512_S512x128_S2000x128_1_0_0_1_n_n 512 rfl rfl k
  have el : dot_S2000x512_S512x128_S2000x128_1_0_0_1_n_n.lhsIdx (ix2 p q) ((contrEquiv1 dot_S2000x512_S512x128_S2000x128_1_0_0_1_n_n 512 rfl rfl).symm k) = ix2 p k := funext fun d => Fin.ext (by
    match d with
    | ⟨0, _⟩ => exact lrow1 _ _
    | ⟨1, _⟩ => exact (dot_S2000x512_S512x128_S2000x128_1_0_0_1_n_n.lhsIdx_val_of_single rfl _ _).trans hk)
  have er : dot_S2000x512_S512x128_S2000x128_1_0_0_1_n_n.rhsIdx (ix2 p q) ((contrEquiv1 dot_S2000x512_S512x128_S2000x128_1_0_0_1_n_n 512 rfl rfl).symm k) = ix2 k q := funext fun d => Fin.ext (by
    match d with
    | ⟨0, _⟩ => exact (dot_S2000x512_S512x128_S2000x128_1_0_0_1_n_n.rhsIdx_val_of_single rfl _ _).trans hk
    | ⟨1, _⟩ => exact rcol1 _ _)
  rw [el, er]

/-- A 2000 × 128 block times the 128 × 40 weights, into zero, at entry (p, q): the sum over the 128 shared indices. -/
theorem prod2_apply (a : FVec Ideal S2000x128 .bf16) (b : FVec Ideal S128x40 .bf16) (p : Fin 2000) (q : Fin 40) :
    FloatOps.matmul dot_S2000x128_S128x40_S2000x40_1_0_0_1_n_n none a b (constant S2000x40 .f32 0x00000000#32) (ix2 p q)
      = ∑ k : Fin 128, a (ix2 p k) * b (ix2 k q) := by
  rw [Ideal.matmul_constant_zero_apply, ← Equiv.sum_comp (contrEquiv1 dot_S2000x128_S128x40_S2000x40_1_0_0_1_n_n 128 rfl rfl).symm]
  refine Finset.sum_congr rfl fun k _ => ?_
  have hk := contrEquiv1_symm_val dot_S2000x128_S128x40_S2000x40_1_0_0_1_n_n 128 rfl rfl k
  have el : dot_S2000x128_S128x40_S2000x40_1_0_0_1_n_n.lhsIdx (ix2 p q) ((contrEquiv1 dot_S2000x128_S128x40_S2000x40_1_0_0_1_n_n 128 rfl rfl).symm k) = ix2 p k := funext fun d => Fin.ext (by
    match d with
    | ⟨0, _⟩ => exact lrow2 _ _
    | ⟨1, _⟩ => exact (dot_S2000x128_S128x40_S2000x40_1_0_0_1_n_n.lhsIdx_val_of_single rfl _ _).trans hk)
  have er : dot_S2000x128_S128x40_S2000x40_1_0_0_1_n_n.rhsIdx (ix2 p q) ((contrEquiv1 dot_S2000x128_S128x40_S2000x40_1_0_0_1_n_n 128 rfl rfl).symm k) = ix2 k q := funext fun d => Fin.ext (by
    match d with
    | ⟨0, _⟩ => exact (dot_S2000x128_S128x40_S2000x40_1_0_0_1_n_n.rhsIdx_val_of_single rfl _ _).trans hk
    | ⟨1, _⟩ => exact rcol2 _ _)
  rw [el, er]

/-! ## The normaliser's column along a row -/

/-- The column of 2000 normalisers broadcast to 128 columns reads row p's normaliser at every column. -/
theorem col128_apply (x : Vec Ideal S2000x1 .f32) (p : Fin 2000) (q : Fin 128) :
    broadcastTo S2000x128 x broadcasts_S2000x1_S2000x128 (ix2 p q) = x (ix2 p (0 : Fin 1)) :=
  broadcastTo_apply x broadcasts_S2000x1_S2000x128 (ix2 p q) (ix2 p (0 : Fin 1)) (fun d => match d with
    | ⟨0, _⟩ => by show p.val = if (2000 : Nat) = 1 then 0 else p.val; rw [if_neg (by decide)]
    | ⟨1, _⟩ => by show 0 = if (1 : Nat) = 1 then 0 else q.val; rw [if_pos rfl])

/-- The same to 40 columns. -/
theorem col40_apply (x : Vec Ideal S2000x1 .f32) (p : Fin 2000) (q : Fin 40) :
    broadcastTo S2000x40 x broadcasts_S2000x1_S2000x40 (ix2 p q) = x (ix2 p (0 : Fin 1)) :=
  broadcastTo_apply x broadcasts_S2000x1_S2000x40 (ix2 p q) (ix2 p (0 : Fin 1)) (fun d => match d with
    | ⟨0, _⟩ => by show p.val = if (2000 : Nat) = 1 then 0 else p.val; rw [if_neg (by decide)]
    | ⟨1, _⟩ => by show 0 = if (1 : Nat) = 1 then 0 else q.val; rw [if_pos rfl])

/-! ## What each body stores, at one entry of its block -/

/-- The first body's stored block at (p, q): row p of its feature block against column q of the weights, times row p's
    normaliser. -/
theorem rows1_apply (x0 : Vec Ideal S2000x512 .f32) (x1 : Vec Ideal S512x128 .f32) (x2 : Vec Ideal S2000x1 .f32)
    (p : Fin 2000) (q : Fin 128) :
    k0_pay1 (F := Ideal) x0 x1 x2 (ix2 p q) = (∑ k : Fin 512, x0 (ix2 p k) * x1 (ix2 k q)) * x2 (ix2 p (0 : Fin 1)) := by
  show FloatOps.matmul (F := Ideal) dot_S2000x512_S512x128_S2000x128_1_0_0_1_n_n none (truncf .bf16 x0 bitsLt_bf16_f32) (truncf .bf16 x1 bitsLt_bf16_f32)
        (constant S2000x128 .f32 0x00000000#32) (ix2 p q)
      * broadcastTo S2000x128 x2 broadcasts_S2000x1_S2000x128 (ix2 p q) = _
  rw [prod1_apply, col128_apply]
  rfl

/-- The second body's stored block at (p, q): row p of its input block scaled by row p's normaliser and clipped below
    at zero, against column q of the weights, times row p's normaliser. -/
theorem rows2_apply (x0 : Vec Ideal S2000x128 .f32) (x1 : Vec Ideal S128x40 .f32) (x2 : Vec Ideal S2000x1 .f32)
    (p : Fin 2000) (q : Fin 40) :
    k1_pay1 (F := Ideal) x0 x2 x1 x2 (ix2 p q)
      = (∑ k : Fin 128, max (x0 (ix2 p k) * x2 (ix2 p (0 : Fin 1))) 0 * x1 (ix2 k q)) * x2 (ix2 p (0 : Fin 1)) := by
  show FloatOps.matmul (F := Ideal) dot_S2000x128_S128x40_S2000x40_1_0_0_1_n_n none
        (truncf .bf16 (maximumf (mulf (shapeCast S2000x128 x0 shapeCasts_S2000x128_S2000x128) (broadcastTo S2000x128 x2 broadcasts_S2000x1_S2000x128))
          (broadcast S2000x128 (Scalar.ofBits .f32 0x00000000#32))) bitsLt_bf16_f32)
        (truncf .bf16 x1 bitsLt_bf16_f32) (constant S2000x40 .f32 0x00000000#32) (ix2 p q)
      * broadcastTo S2000x40 x2 broadcasts_S2000x1_S2000x40 (ix2 p q) = _
  rw [prod2_apply, col40_apply]
  refine congrArg (· * x2 (ix2 p (0 : Fin 1))) (Finset.sum_congr rfl fun k _ => ?_)
  show max (shapeCast S2000x128 x0 shapeCasts_S2000x128_S2000x128 (ix2 p k) * broadcastTo S2000x128 x2 broadcasts_S2000x1_S2000x128 (ix2 p k))
        (Ideal.ofBits .f32 0x00000000#32) * x1 (ix2 k q) = _
  rw [shapeCast_self, col128_apply, Ideal.ofBits_zero_f32]

/-! ## A stored entry is the layer's entry, when the block's rows are the arrays' rows -/

/-- If row p of the feature block is row r of the features, the weight block the weights, and the normaliser block's
    row p the normaliser of r, then the first body's entry (p, q) is layer one at (r, q) — `i` is that index. -/
theorem lin1_of_rows (X : S50000x512.Idx → EReal) (W : S512x128.Idx → EReal) (n : S50000x1.Idx → EReal) (i : S50000x128.Idx)
    (x0 : Vec Ideal S2000x512 .f32) (x1 : Vec Ideal S512x128 .f32) (x2 : Vec Ideal S2000x1 .f32) (p : Fin 2000) (q : Fin 128)
    (hX : ∀ k : Fin 512, x0 (ix2 p k) = X (ix2 (i 0) k))
    (hW : ∀ k : Fin 512, x1 (ix2 k q) = W (ix2 k (i 1)))
    (hn : x2 (ix2 p (0 : Fin 1)) = n (ix2 (i 0) (0 : Fin 1))) :
    k0_pay1 (F := Ideal) x0 x1 x2 (ix2 p q) = lin1 X W n i := by
  rw [rows1_apply]
  unfold lin1
  rw [hn]
  exact congrArg (· * n (ix2 (i 0) (0 : Fin 1))) (Finset.sum_congr rfl fun k _ => by rw [hX k, hW k])

/-- The same for the second body and layer two. -/
theorem lin2_of_rows (A : S50000x128.Idx → EReal) (W : S128x40.Idx → EReal) (n : S50000x1.Idx → EReal) (i : S50000x40.Idx)
    (x0 : Vec Ideal S2000x128 .f32) (x1 : Vec Ideal S128x40 .f32) (x2 : Vec Ideal S2000x1 .f32) (p : Fin 2000) (q : Fin 40)
    (hA : ∀ k : Fin 128, x0 (ix2 p k) = A (ix2 (i 0) k))
    (hW : ∀ k : Fin 128, x1 (ix2 k q) = W (ix2 k (i 1)))
    (hn : x2 (ix2 p (0 : Fin 1)) = n (ix2 (i 0) (0 : Fin 1))) :
    k1_pay1 (F := Ideal) x0 x2 x1 x2 (ix2 p q) = lin2 A W n i := by
  rw [rows2_apply]
  unfold lin2
  rw [hn]
  exact congrArg (· * n (ix2 (i 0) (0 : Fin 1))) (Finset.sum_congr rfl fun k _ => by rw [hA k, hW k])

end Cert.KernelIdeal.Gcn

end
-- ==== Proof.Region0.lean ====
/-
  The first region's result array. Grid point t of the 25 stores rows 2000·t … 2000·t + 1999: the product of those rows
  of the features with the whole of the first weights, each row scaled by its node's normaliser. That is rows
  2000·t … 2000·t + 1999 of layer one of the whole arrays, because row r of layer one reads row r of the features and
  of the normalisers only; and the 25 blocks of 2000 rows tile the 50000 rows. So after the region the array is layer
  one of the arrays the region found.
-/
import proofs.«119521_j8581344658003_1_alg».proof.Proof.Gen.KernelIdeal.Frame
import proofs.«119521_j8581344658003_1_alg».proof.Proof.Layers

set_option maxRecDepth 16384

noncomputable section

namespace Cert.KernelIdeal.Gcn

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The offsets `![0, 0]` of a whole-block rectangle are the zero offsets. -/
theorem zeros2 : (![0, 0] : Fin 2 → Nat) = fun _ => 0 := funext fun a => by fin_cases a <;> rfl

/-- The first region's block indices at a grid point: the feature, normaliser and result windows move together along
    the rows, the weights stay, and no window moves along the columns. -/
theorem blockIdx0 : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (1 : Fin 2) = 0 :=
  (by decide +kernel : ∀ t : Fin grid0.N, _)

/-- Every one of the 25 row blocks is some grid point's. -/
theorem blockOnto0 : ∀ q0 : Fin 25, ∃ t : Fin cfg0.N, win0_3.index t = ![q0.val, 0] :=
  (by decide +kernel : ∀ q0 : Fin 25, ∃ t : Fin grid0.N, win0_3.index t = ![q0.val, 0])

/-- What grid point t writes back is block t of layer one of the arrays the region found. -/
theorem wrote0 (c : Dev nD) (t : Fin cfg0.N) :
    (dat0 V c).flushed 3 t
      = ((cfg0.win 3).blk t).view.read (Elt Ideal) (lin1 (V c main_arg0) (V c main_arg2) (V c main_arg1)) := by
  show (cfg0.win 3).cut (grid0.coords t) ((dat0 V c).after 3 t) = _
  rw [after0_3]
  unfold out0_3
  rw [View.canon_unit_zero zeros2]
  simp only [View.ld_unit_zero (S := S2000x512) zeros2, View.ld_unit_zero (S := S512x128) zeros2, View.ld_unit_zero (S := S2000x1) zeros2]
  obtain ⟨e0, e1, e2, e3, e4, e5, e6⟩ := blockIdx0 t
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (iblk0 V c 2 t) (ix2 p q)
      = lin1 (V c main_arg0) (V c main_arg2) (V c main_arg1) (((cfg0.win 3).blk t).view.emb (ix2 p q))
  have hX : ∀ k : Fin 512, ((cfg0.win 0).blk t).view.emb (ix2 p k)
      = ix2 ((((cfg0.win 3).blk t).view.emb (ix2 p q)) 0) k := fun k => by
    funext a; apply Fin.ext
    match a with
    | ⟨0, _⟩ => show win0_0.index t (0 : Fin 2) * 2000 + 1 * p.val = win0_3.index t (0 : Fin 2) * 2000 + 1 * p.val; omega
    | ⟨1, _⟩ => show win0_0.index t (1 : Fin 2) * 512 + 1 * k.val = k.val; omega
  have hW : ∀ k : Fin 512, ((cfg0.win 1).blk t).view.emb (ix2 k q)
      = ix2 k ((((cfg0.win 3).blk t).view.emb (ix2 p q)) 1) := fun k => by
    funext a; apply Fin.ext
    match a with
    | ⟨0, _⟩ => show win0_1.index t (0 : Fin 2) * 512 + 1 * k.val = k.val; omega
    | ⟨1, _⟩ => show win0_1.index t (1 : Fin 2) * 128 + 1 * q.val = win0_3.index t (1 : Fin 2) * 128 + 1 * q.val; omega
  have hn : ((cfg0.win 2).blk t).view.emb (ix2 p (0 : Fin 1))
      = ix2 ((((cfg0.win 3).blk t).view.emb (ix2 p q)) 0) (0 : Fin 1) := by
    funext a; apply Fin.ext
    match a with
    | ⟨0, _⟩ => show win0_2.index t (0 : Fin 2) * 2000 + 1 * p.val = win0_3.index t (0 : Fin 2) * 2000 + 1 * p.val; omega
    | ⟨1, _⟩ => show win0_2.index t (1 : Fin 2) * 1 + 1 * 0 = 0; omega
  refine lin1_of_rows (V c main_arg0) (V c main_arg2) (V c main_arg1) (((cfg0.win 3).blk t).view.emb (ix2 p q))
    (iblk0 V c 0 t) (iblk0 V c 1 t) (iblk0 V c 2 t) p q ?_ ?_ ?_
  · intro k; exact congrArg (V c main_arg0) (hX k)
  · intro k; exact congrArg (V c main_arg2) (hW k)
  · exact congrArg (V c main_arg1) hn

/-- An index of the array is in point t's block iff each coordinate is in the block's range on its axis. -/
theorem inBlock0 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v0).slice (win0_3.rect t)).set ↔ _
  rw [View.set_slice_whole, Rect.mem_set_unit]
  exact Iff.rfl

/-- Row r lies in the block of grid point r / 2000: the blocks tile the array. -/
theorem tiled0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := blockOnto0 ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [inBlock0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- After the first region its result array is layer one of the arrays the region found. -/
theorem layer1_array (c : Dev nD) :
    (dat0 V c).arrAt 3 cfg0.N = lin1 (V c main_arg0) (V c main_arg2) (V c main_arg1) :=
  (dat0 V c).arrAt_eq_of_cover 3 _ (fun t _ => wrote0 V c t) tiled0

end Cert.KernelIdeal.Gcn

end
-- ==== Proof.Region1.lean ====
/-
  The second region's result array. Grid point t of the 25 stores rows 2000·t … 2000·t + 1999: those rows of its input
  scaled by their nodes' normalisers and clipped below at zero, times the whole of the second weights, each row scaled
  again. That is rows 2000·t … 2000·t + 1999 of layer two of the whole arrays, because row r of layer two reads row r
  of the input and of the normalisers only; and the 25 blocks of 2000 rows tile the 50000 rows. So after the region the
  array is layer two of the arrays the region found.
-/
import proofs.«119521_j8581344658003_1_alg».proof.Proof.Gen.KernelIdeal.Frame
import proofs.«119521_j8581344658003_1_alg».proof.Proof.Layers

set_option maxRecDepth 16384

noncomputable section

namespace Cert.KernelIdeal.Gcn

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The offsets `![0, 0]` of a whole-block rectangle are the zero offsets. -/
theorem zeroOffsets : (![0, 0] : Fin 2 → Nat) = fun _ => 0 := funext fun a => by fin_cases a <;> rfl

/-- The second region's block indices at a grid point: the input, normaliser and result windows move together along
    the rows, the weights stay, and no window moves along the columns. -/
theorem blockIdx1 : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = win1_3.index t (0 : Fin 2)
    ∧ win1_2.index t (1 : Fin 2) = 0
    ∧ win1_3.index t (1 : Fin 2) = 0 :=
  (by decide +kernel : ∀ t : Fin grid1.N, _)

/-- Every one of the 25 row blocks is some grid point's. -/
theorem blockOnto1 : ∀ q0 : Fin 25, ∃ t : Fin cfg1.N, win1_3.index t = ![q0.val, 0] :=
  (by decide +kernel : ∀ q0 : Fin 25, ∃ t : Fin grid1.N, win1_3.index t = ![q0.val, 0])

/-- What grid point t writes back is block t of layer two of the arrays the region found. -/
theorem wrote1 (c : Dev nD) (t : Fin cfg1.N) :
    (dat1 V c).flushed 3 t
      = ((cfg1.win 3).blk t).view.read (Elt Ideal) (lin2 (V c main_v10) (V c main_arg3) (V c main_arg1)) := by
  show (cfg1.win 3).cut (grid1.coords t) ((dat1 V c).after 3 t) = _
  rw [after1_3]
  unfold out1_3
  rw [View.canon_unit_zero zeroOffsets]
  simp only [View.ld_unit_zero (S := S2000x128) zeroOffsets, View.ld_unit_zero (S := S128x40) zeroOffsets, View.ld_unit_zero (S := S2000x1) zeroOffsets]
  obtain ⟨e0, e1, e2, e3, e4, e5, e6⟩ := blockIdx1 t
  funext j
  obtain ⟨p, q, rfl⟩ : ∃ (p : Fin 2000) (q : Fin 40), j = ix2 p q := ⟨j 0, j 1, eq_ix2 j⟩
  show k1_pay1 (F := Ideal) (iblk1 V c 0 t) (iblk1 V c 2 t) (iblk1 V c 1 t) (iblk1 V c 2 t) (ix2 p q)
      = lin2 (V c main_v10) (V c main_arg3) (V c main_arg1) (((cfg1.win 3).blk t).view.emb (ix2 p q))
  have hA : ∀ k : Fin 128, ((cfg1.win 0).blk t).view.emb (ix2 p k)
      = ix2 ((((cfg1.win 3).blk t).view.emb (ix2 p q)) 0) k := fun k => by
    funext a; apply Fin.ext
    match a with
    | ⟨0, _⟩ => show win1_0.index t (0 : Fin 2) * 2000 + 1 * p.val = win1_3.index t (0 : Fin 2) * 2000 + 1 * p.val; omega
    | ⟨1, _⟩ => show win1_0.index t (1 : Fin 2) * 128 + 1 * k.val = k.val; omega
  have hW : ∀ k : Fin 128, ((cfg1.win 1).blk t).view.emb (ix2 k q)
      = ix2 k ((((cfg1.win 3).blk t).view.emb (ix2 p q)) 1) := fun k => by
    funext a; apply Fin.ext
    match a with
    | ⟨0, _⟩ => show win1_1.index t (0 : Fin 2) * 128 + 1 * k.val = k.val; omega
    | ⟨1, _⟩ => show win1_1.index t (1 : Fin 2) * 40 + 1 * q.val = win1_3.index t (1 : Fin 2) * 40 + 1 * q.val; omega
  have hn : ((cfg1.win 2).blk t).view.emb (ix2 p (0 : Fin 1))
      = ix2 ((((cfg1.win 3).blk t).view.emb (ix2 p q)) 0) (0 : Fin 1) := by
    funext a; apply Fin.ext
    match a with
    | ⟨0, _⟩ => show win1_2.index t (0 : Fin 2) * 2000 + 1 * p.val = win1_3.index t (0 : Fin 2) * 2000 + 1 * p.val; omega
    | ⟨1, _⟩ => show win1_2.index t (1 : Fin 2) * 1 + 1 * 0 = 0; omega
  refine lin2_of_rows (V c main_v10) (V c main_arg3) (V c main_arg1) (((cfg1.win 3).blk t).view.emb (ix2 p q))
    (iblk1 V c 0 t) (iblk1 V c 1 t) (iblk1 V c 2 t) p q ?_ ?_ ?_
  · intro k; exact congrArg (V c main_v10) (hA k)
  · intro k; exact congrArg (V c main_arg3) (hW k)
  · exact congrArg (V c main_arg1) hn

/-- An index of the array is in point t's block iff each coordinate is in the block's range on its axis. -/
theorem inBlock1 (t : Fin cfg1.N) (i : S50000x40.Idx) :
    i ∈ ((cfg1.win 3).blk t).view.set ↔ ∀ a : Fin 2, win1_3.index t a * S2000x40.size a ≤ (i a).val ∧ (i a).val < win1_3.index t a * S2000x40.size a + S2000x40.size a := by
  show i ∈ ((View.whole main_v11).slice (win1_3.rect t)).set ↔ _
  rw [View.set_slice_whole, Rect.mem_set_unit]
  exact Iff.rfl

/-- Row r lies in the block of grid point r / 2000: the blocks tile the array. -/
theorem tiled1 (i : S50000x40.Idx) : ∃ t : Fin cfg1.N, (cfg1.win 3).flush t = true ∧ i ∈ ((cfg1.win 3).blk t).view.set := by
  have hi0 : (i 0).val < 50000 := (i 0).isLt
  have hi1 : (i 1).val < 40 := (i 1).isLt
  obtain ⟨t, ht⟩ := blockOnto1 ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [inBlock1]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 40 ≤ (i 1).val ∧ (i 1).val < win1_3.index t (1 : Fin 2) * 40 + 40; omega

/-- After the second region its result array is layer two of the arrays the region found. -/
theorem layer2_array (c : Dev nD) :
    (dat1 V c).arrAt 3 cfg1.N = lin2 (V c main_v10) (V c main_arg3) (V c main_arg1) :=
  (dat1 V c).arrAt_eq_of_cover 3 _ (fun t _ => wrote1 V c t) tiled1

end Cert.KernelIdeal.Gcn

end
-- ==== Proof.Network.lean ====
/-
  The whole network as one function of the six arguments. An aggregation sends a matrix of node rows to the matrix
  whose row d is the sum, over the edges (s, d) into d, of row s: the source indices are first wrapped (a negative
  index counts from the end), the source rows gathered, and the gathered rows added into a zero matrix at their
  destinations. Both programs aggregate by the very same host operations, so an aggregation is carried here as one
  function of its input and never opened. The network is

    layer one → aggregation → layer two → aggregation → each row scaled by its node's normaliser.
-/
import proofs.«119521_j8581344658003_1_alg».proof.Proof.Layers

noncomputable section

namespace Cert.KernelIdeal.Gcn

open Idealize.ShloMosaic Idealize.ShloMosaic.TcCoe Cert.KernelIdeal Cert.KernelIdeal.Gen

/-- The edge sources as a column of start indices, a negative source wrapped by the number of nodes. -/
def wrapped (src : (⟨S800000, .i32⟩ : BufTy).Contents (Elt Ideal)) : (⟨S800000x1, .i32⟩ : BufTy).Contents (Elt Ideal) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Aggregation of 128-wide rows along the edges. -/
def agg128 (h : (⟨S50000x128, .f32⟩ : BufTy).Contents (Elt Ideal)) (src dst : (⟨S800000, .i32⟩ : BufTy).Contents (Elt Ideal)) :
    (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 h (wrapped src))

/-- Aggregation of 40-wide rows along the edges. -/
def agg40 (h : (⟨S50000x40, .f32⟩ : BufTy).Contents (Elt Ideal)) (src dst : (⟨S800000, .i32⟩ : BufTy).Contents (Elt Ideal)) :
    (⟨S50000x40, .f32⟩ : BufTy).Contents (Elt Ideal) :=
  Host.scatterAdd (F := Ideal) scatter_S50000x40_S800000x1_S800000x40_1_0_0_1
    (broadcastInDim S50000x40 ![] bcast_S_S50000x40 (constant (F := Ideal) S_ .f32 0x00000000#32))
    (broadcastInDim S800000x1 ![0] bcast_S800000_S800000x1_0 dst)
    (Host.gather gather_S50000x40_S800000x1_S800000x40_1_0_n_n_0_1_140 h (wrapped src))

/-- The last step: each row of a 40-wide matrix scaled by its node's normaliser. -/
def scaled (h : (⟨S50000x40, .f32⟩ : BufTy).Contents (Elt Ideal)) (n : (⟨S50000x1, .f32⟩ : BufTy).Contents (Elt Ideal)) :
    (⟨S50000x40, .f32⟩ : BufTy).Contents (Elt Ideal) :=
  mulf (F := Ideal) (φ := .f32) h (broadcastInDim S50000x40 ![0, 1] bcast_S50000x1_S50000x40_0_1 n)

/-- The network: features X, normalisers n, weights W₁ and W₂, edge sources and destinations. -/
def gcn (X : (⟨S50000x512, .f32⟩ : BufTy).Contents (Elt Ideal)) (n : (⟨S50000x1, .f32⟩ : BufTy).Contents (Elt Ideal))
    (W₁ : (⟨S512x128, .f32⟩ : BufTy).Contents (Elt Ideal)) (W₂ : (⟨S128x40, .f32⟩ : BufTy).Contents (Elt Ideal))
    (src dst : (⟨S800000, .i32⟩ : BufTy).Contents (Elt Ideal)) : (⟨S50000x40, .f32⟩ : BufTy).Contents (Elt Ideal) :=
  scaled (agg40 (lin2 (agg128 (lin1 X W₁ n) src dst) W₂ n) src dst) n

end Cert.KernelIdeal.Gcn

end
-- ==== Proof.KernelValue.lean ====
/-
  The kernel program's result buffer holds the network of its arguments. Reading back from the end: the host operations
  after the second region aggregate that region's result and scale it; the second region leaves layer two of what it
  found, which is what the host operations between the regions left — the aggregate of the first region's result — and
  the arguments; the first region leaves layer one of the arguments. No operation and no region writes an argument, so
  at every boundary the arguments are as launched.
-/
import proofs.«119521_j8581344658003_1_alg».proof.Proof.Gen.KernelIdeal.Frame
import proofs.«119521_j8581344658003_1_alg».proof.Proof.LibHostKeeps
import proofs.«119521_j8581344658003_1_alg».proof.Proof.Region0
import proofs.«119521_j8581344658003_1_alg».proof.Proof.Region1
import proofs.«119521_j8581344658003_1_alg».proof.Proof.Network
import Idealize.ShloMosaic.Lib.StableHlo.Run
import Idealize.ShloMosaic.PureOps.Ideal

set_option maxRecDepth 16384

noncomputable section

namespace Cert.KernelIdeal.Gcn

open Idealize.ShloMosaic Idealize.ShloMosaic.TcCoe Idealize.SL.Sem Idealize.ShloMosaic.StableHlo
open Idealize.ShloMosaic.Pipeline (Dat Cfg Window)
open Cert.KernelIdeal Cert.KernelIdeal.Gen

variable (m : (ℓ : Loc nD τ sig) → Buf (Elt Ideal) ℓ) (ρ : Dev nD → PrngReg)

/-! ## The arguments after the second region -/

theorem norm_after1 (c : Dev nD) : W3 m ρ c (Proc.devRef .tc main_arg1) = m ((c.tc : Thread nD τ).loc main_arg1) :=
  (show W4 m ρ c (Proc.devRef .tc main_arg1) = W3 m ρ c (Proc.devRef .tc main_arg1) by host_keeps hostOps2).symm.trans (W4_main_arg1 m ρ c)
theorem weights2_after1 (c : Dev nD) : W3 m ρ c (Proc.devRef .tc main_arg3) = m ((c.tc : Thread nD τ).loc main_arg3) :=
  (show W4 m ρ c (Proc.devRef .tc main_arg3) = W3 m ρ c (Proc.devRef .tc main_arg3) by host_keeps hostOps2).symm.trans (W4_main_arg3 m ρ c)
theorem src_after1 (c : Dev nD) : W3 m ρ c (Proc.devRef .tc main_arg4) = m ((c.tc : Thread nD τ).loc main_arg4) :=
  (show W4 m ρ c (Proc.devRef .tc main_arg4) = W3 m ρ c (Proc.devRef .tc main_arg4) by host_keeps hostOps2).symm.trans (W4_main_arg4 m ρ c)
theorem dst_after1 (c : Dev nD) : W3 m ρ c (Proc.devRef .tc main_arg5) = m ((c.tc : Thread nD τ).loc main_arg5) :=
  (show W4 m ρ c (Proc.devRef .tc main_arg5) = W3 m ρ c (Proc.devRef .tc main_arg5) by host_keeps hostOps2).symm.trans (W4_main_arg5 m ρ c)

/-! ## The arguments the second region reads, as it finds them: an input window's array ends as it was entered -/

theorem weights2_before1 (c : Dev nD) : V2 m ρ c main_arg3 = m ((c.tc : Thread nD τ).loc main_arg3) :=
  ((W3_arr m ρ c 1).trans (((dat1 (V2 m ρ) c).arrAt_in 1 rfl _).trans (A_eq1 (V2 m ρ) c 1))).symm.trans (weights2_after1 m ρ c)
theorem norm_before1 (c : Dev nD) : V2 m ρ c main_arg1 = m ((c.tc : Thread nD τ).loc main_arg1) :=
  ((W3_arr m ρ c 2).trans (((dat1 (V2 m ρ) c).arrAt_in 2 rfl _).trans (A_eq1 (V2 m ρ) c 2))).symm.trans (norm_after1 m ρ c)

/-! ## After the first region -/

theorem src_after0 (c : Dev nD) : W1 m ρ c (Proc.devRef .tc main_arg4) = m ((c.tc : Thread nD τ).loc main_arg4) :=
  (W1_of_ne m ρ c main_arg4 (by decide)).trans rfl
theorem dst_after0 (c : Dev nD) : W1 m ρ c (Proc.devRef .tc main_arg5) = m ((c.tc : Thread nD τ).loc main_arg5) :=
  (W1_of_ne m ρ c main_arg5 (by decide)).trans rfl
/-- The first region's result array is layer one of the arguments. -/
theorem hidden_after0 (c : Dev nD) :
    W1 m ρ c (Proc.devRef .tc main_v0) = lin1 (m ((c.tc : Thread nD τ).loc main_arg0)) (m ((c.tc : Thread nD τ).loc main_arg2)) (m ((c.tc : Thread nD τ).loc main_arg1)) :=
  (W1_arr m ρ c 3).trans (layer1_array (V0 m ρ) c)

/-! ## Through the host operations between the regions, the second region, and the host operations after it -/

/-- The second region's input is the aggregate of layer one. -/
theorem aggregated_before1 (c : Dev nD) :
    V2 m ρ c main_v10 = agg128 (lin1 (m ((c.tc : Thread nD τ).loc main_arg0)) (m ((c.tc : Thread nD τ).loc main_arg2)) (m ((c.tc : Thread nD τ).loc main_arg1))) (m ((c.tc : Thread nD τ).loc main_arg4)) (m ((c.tc : Thread nD τ).loc main_arg5)) := by
  generalize hG : agg128 (lin1 (m ((c.tc : Thread nD τ).loc main_arg0)) (m ((c.tc : Thread nD τ).loc main_arg2)) (m ((c.tc : Thread nD τ).loc main_arg1))) (m ((c.tc : Thread nD τ).loc main_arg4)) (m ((c.tc : Thread nD τ).loc main_arg5)) = G
  show StableHlo.after hostOps1 (W1 m ρ c) (Proc.devRef .tc main_v10) = G
  after_results
  rw [src_after0, dst_after0, hidden_after0, ← hG]
  rfl

/-- The second region's result array is layer two of that aggregate. -/
theorem classes_after1 (c : Dev nD) :
    W3 m ρ c (Proc.devRef .tc main_v11)
      = lin2 (agg128 (lin1 (m ((c.tc : Thread nD τ).loc main_arg0)) (m ((c.tc : Thread nD τ).loc main_arg2)) (m ((c.tc : Thread nD τ).loc main_arg1))) (m ((c.tc : Thread nD τ).loc main_arg4)) (m ((c.tc : Thread nD τ).loc main_arg5)))
          (m ((c.tc : Thread nD τ).loc main_arg3)) (m ((c.tc : Thread nD τ).loc main_arg1)) := by
  refine (W3_arr m ρ c 3).trans ((layer2_array (V2 m ρ) c).trans ?_)
  rw [aggregated_before1, weights2_before1, norm_before1]

/-- The result buffer at the end is the network of the arguments. -/
theorem result_kernel (c : Dev nD) :
    W4 m ρ c (Proc.devRef .tc main_v23)
      = gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  generalize hG : gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = G
  show StableHlo.after hostOps2 (W3 m ρ c) (Proc.devRef .tc main_v23) = G
  after_results
  rw [norm_after1, src_after1, dst_after1, classes_after1, ← hG]
  rfl

end Cert.KernelIdeal.Gcn

end
-- ==== Proof.Reference.lean ====
/-
  The reference computes the network. Read one operation at a time, its product of the features with the first
  weights, scaled, is layer one (a matrix product read at an entry is the sum over the shared index; the broadcast
  normaliser read at (r, j) is n[r]); its second product, of the scaled and clipped aggregate with the second weights,
  scaled, is layer two of that aggregate; the two aggregations and the last scaling are the network's own operations.
-/
import proofs.«119521_j8581344658003_1_alg».proof.Proof.Gen.ReferenceIdeal.Read
import proofs.«119521_j8581344658003_1_alg».proof.Proof.Network

noncomputable section

namespace Cert.ReferenceIdeal.Gcn

open Idealize.ShloMosaic Idealize.ShloMosaic.TcCoe Idealize.ShloMosaic.ValueIdx
open Cert.ReferenceIdeal Cert.ReferenceIdeal.Read
open Cert.KernelIdeal.Gcn (lin1 lin2 agg128 agg40 scaled gcn wrapped)
open scoped BigOperators

/-- The reference's first product, scaled, is layer one. -/
theorem layer1_ref (x0 : (⟨S50000x512, .f32⟩ : BufTy).Contents (Elt Ideal)) (x1 : (⟨S50000x1, .f32⟩ : BufTy).Contents (Elt Ideal)) (x2 : (⟨S512x128, .f32⟩ : BufTy).Contents (Elt Ideal)) :
    val_main_v2 (F := Ideal) x0 x1 x2 = lin1 x0 x2 x1 := by
  funext i
  obtain ⟨r, j, rfl⟩ : ∃ (r : Fin 50000) (j : Fin 128), i = ix2 r j := ⟨i 0, i 1, eq_ix2 i⟩
  rw [val_main_v2_apply, val_main_v0_apply, val_main_v1_apply]
  have hl : ∀ k : Fin 512, lidx_main_v0 (ix2 r j) k = ix2 r k := fun k => funext fun a => Fin.ext (by
    match a with
    | ⟨0, _⟩ => rfl
    | ⟨1, _⟩ => rfl)
  have hr : ∀ k : Fin 512, ridx_main_v0 (ix2 r j) k = ix2 k j := fun k => funext fun a => Fin.ext (by
    match a with
    | ⟨0, _⟩ => rfl
    | ⟨1, _⟩ => rfl)
  have hn : idx_main_v1 (ix2 r j) = ix2 r (0 : Fin 1) := funext fun a => Fin.ext (by
    match a with
    | ⟨0, _⟩ => rfl
    | ⟨1, _⟩ => rfl)
  rw [hn]
  show (∑ k : Fin 512, x0 (lidx_main_v0 (ix2 r j) k) * x2 (ridx_main_v0 (ix2 r j) k)) * x1 (ix2 r (0 : Fin 1))
      = (∑ k : Fin 512, x0 (ix2 r k) * x2 (ix2 k j)) * x1 (ix2 r (0 : Fin 1))
  exact congrArg (· * x1 (ix2 r (0 : Fin 1))) (Finset.sum_congr rfl fun k _ => by rw [hl k, hr k])

/-- The reference's second product, scaled, is layer two of the first aggregate. -/
theorem layer2_ref (x0 : (⟨S50000x512, .f32⟩ : BufTy).Contents (Elt Ideal)) (x1 : (⟨S50000x1, .f32⟩ : BufTy).Contents (Elt Ideal)) (x2 : (⟨S512x128, .f32⟩ : BufTy).Contents (Elt Ideal)) (x3 : (⟨S128x40, .f32⟩ : BufTy).Contents (Elt Ideal)) (x4 x5 : (⟨S800000, .i32⟩ : BufTy).Contents (Elt Ideal)) :
    val_main_v18 (F := Ideal) x0 x1 x2 x3 x4 x5 = lin2 (val_main_v12 (F := Ideal) x0 x1 x2 x4 x5) x3 x1 := by
  funext i
  obtain ⟨r, j, rfl⟩ : ∃ (r : Fin 50000) (j : Fin 40), i = ix2 r j := ⟨i 0, i 1, eq_ix2 i⟩
  rw [val_main_v18_apply, val_main_v16_apply, val_main_v17_apply]
  have hl : ∀ k : Fin 128, lidx_main_v16 (ix2 r j) k = ix2 r k := fun k => funext fun a => Fin.ext (by
    match a with
    | ⟨0, _⟩ => rfl
    | ⟨1, _⟩ => rfl)
  have hr : ∀ k : Fin 128, ridx_main_v16 (ix2 r j) k = ix2 k j := fun k => funext fun a => Fin.ext (by
    match a with
    | ⟨0, _⟩ => rfl
    | ⟨1, _⟩ => rfl)
  have hn : idx_main_v17 (ix2 r j) = ix2 r (0 : Fin 1) := funext fun a => Fin.ext (by
    match a with
    | ⟨0, _⟩ => rfl
    | ⟨1, _⟩ => rfl)
  have hn' : ∀ k : Fin 128, idx_main_v13 (ix2 r k) = ix2 r (0 : Fin 1) := fun k => funext fun a => Fin.ext (by
    match a with
    | ⟨0, _⟩ => rfl
    | ⟨1, _⟩ => rfl)
  rw [hn]
  show (∑ k : Fin 128, val_main_v15 (F := Ideal) x0 x1 x2 x4 x5 (lidx_main_v16 (ix2 r j) k) * x3 (ridx_main_v16 (ix2 r j) k)) * x1 (ix2 r (0 : Fin 1))
      = (∑ k : Fin 128, max (val_main_v12 (F := Ideal) x0 x1 x2 x4 x5 (ix2 r k) * x1 (ix2 r (0 : Fin 1))) 0 * x3 (ix2 k j)) * x1 (ix2 r (0 : Fin 1))
  refine congrArg (· * x1 (ix2 r (0 : Fin 1))) (Finset.sum_congr rfl fun k _ => ?_)
  rw [hl k, hr k, val_main_v15_apply, val_main_v14_apply, val_main_v13_apply, val_main_call0_v0_apply, val_main_call0_cst_apply, hn' k]
  show max (_ * _) (Ideal.ofBits .f32 0x00000000#32) * _ = _
  rw [Ideal.ofBits_zero_f32]

/-- The reference's wrapped source column is the network's. -/
theorem wrapped_ref (x4 : (⟨S800000, .i32⟩ : BufTy).Contents (Elt Ideal)) : val_main_v8 (F := Ideal) x4 = wrapped x4 := rfl
/-- The same at its second aggregation. -/
theorem wrapped_ref' (x4 : (⟨S800000, .i32⟩ : BufTy).Contents (Elt Ideal)) : val_main_v24 (F := Ideal) x4 = wrapped x4 := rfl

/-- The reference's first aggregation is the network's, whatever it aggregates. -/
theorem agg128_ref (h : (⟨S50000x128, .f32⟩ : BufTy).Contents (Elt Ideal)) (x4 x5 : (⟨S800000, .i32⟩ : BufTy).Contents (Elt Ideal)) :
    Host.scatterAdd (F := Ideal) (φ := .f32) scatter_S50000x128_S800000x1_S800000x128_1_0_0_1 (val_main_v10 (F := Ideal)) (val_main_v11 (F := Ideal) x5)
      (Host.gather gather_S50000x128_S800000x1_S800000x128_1_0_n_n_0_1_1128 h (wrapped x4)) = agg128 h x4 x5 := rfl

/-- The reference's second aggregation is the network's, whatever it aggregates. -/
theorem agg40_ref (h : (⟨S50000x40, .f32⟩ : BufTy).Contents (Elt Ideal)) (x4 x5 : (⟨S800000, .i32⟩ : BufTy).Contents (Elt Ideal)) :
    Host.scatterAdd (F := Ideal) (φ := .f32) scatter_S50000x40_S800000x1_S800000x40_1_0_0_1 (val_main_v26 (F := Ideal)) (val_main_v27 (F := Ideal) x5)
      (Host.gather gather_S50000x40_S800000x1_S800000x40_1_0_n_n_0_1_140 h (wrapped x4)) = agg40 h x4 x5 := rfl

/-- The reference's last scaling is the network's. -/
theorem scaled_ref (h : (⟨S50000x40, .f32⟩ : BufTy).Contents (Elt Ideal)) (x1 : (⟨S50000x1, .f32⟩ : BufTy).Contents (Elt Ideal)) :
    mulf (F := Ideal) (φ := .f32) h (val_main_v29 (F := Ideal) x1) = scaled h x1 := rfl

/-- The reference's result is the network of its arguments. -/
theorem result_ref (x0 : (⟨S50000x512, .f32⟩ : BufTy).Contents (Elt Ideal)) (x1 : (⟨S50000x1, .f32⟩ : BufTy).Contents (Elt Ideal)) (x2 : (⟨S512x128, .f32⟩ : BufTy).Contents (Elt Ideal)) (x3 : (⟨S128x40, .f32⟩ : BufTy).Contents (Elt Ideal)) (x4 x5 : (⟨S800000, .i32⟩ : BufTy).Contents (Elt Ideal)) :
    val_main_v30 (F := Ideal) x0 x1 x2 x3 x4 x5 = gcn x0 x1 x2 x3 x4 x5 := by
  unfold val_main_v30 val_main_v28 val_main_v25
  rw [layer2_ref]
  unfold val_main_v12 val_main_v9
  rw [layer1_ref, wrapped_ref, wrapped_ref', agg128_ref, agg40_ref, scaled_ref]
  rfl

end Cert.ReferenceIdeal.Gcn

end
-- ==== Proof.lean ====
/-
  A two-layer graph convolution: features X (50000 × 512), one normaliser n[r] per node, weights W₁ (512 × 128) and
  W₂ (128 × 40), and 800000 edges (source, destination). With agg the sum of source rows into destination rows,

    out = agg( L₂( agg( L₁ ) ) ) · n,      L₁[r,j] = (Σ_k X[r,k]·W₁[k,j])·n[r],
                                            L₂[r,j] = (Σ_k max(A[r,k]·n[r], 0)·W₂[k,j])·n[r]   for the aggregate A.

  The kernel program computes L₁ and L₂ in two regions of 25 blocks of 2000 rows, between and after which the host
  aggregates; the reference computes the same chain with whole-array products. Over the extended reals a block of rows
  of a product is the product of the block of rows, a sum over the shared index however it is carried out, and the
  change of float format the identity, so both end at the same function of the arguments: no law beyond the
  commutative monoid of sums is used, and the finiteness of the inputs is not needed. The three frames are the
  generated ones (the reference's is its generated run with the result dropped), and the idealization rewrote no
  operation.
-/
import proofs.«119521_j8581344658003_1_alg».proof.Defs
import proofs.«119521_j8581344658003_1_alg».proof.Proof.Gen.Kernel
import proofs.«119521_j8581344658003_1_alg».proof.Proof.Gen.Kernel.Skeleton
import proofs.«119521_j8581344658003_1_alg».proof.Proof.Gen.Kernel.Launch
import proofs.«119521_j8581344658003_1_alg».proof.Proof.Gen.Kernel.Points
import proofs.«119521_j8581344658003_1_alg».proof.Proof.Gen.Kernel.Frame
import proofs.«119521_j8581344658003_1_alg».proof.Proof.Gen.KernelIdeal
import proofs.«119521_j8581344658003_1_alg».proof.Proof.Gen.KernelIdeal.Skeleton
import proofs.«119521_j8581344658003_1_alg».proof.Proof.Gen.KernelIdeal.Launch
import proofs.«119521_j8581344658003_1_alg».proof.Proof.Gen.KernelIdeal.Points
import proofs.«119521_j8581344658003_1_alg».proof.Proof.Gen.KernelIdeal.Frame
import proofs.«119521_j8581344658003_1_alg».proof.Proof.Gen.ReferenceIdeal
import proofs.«119521_j8581344658003_1_alg».proof.Proof.Gen.ReferenceIdeal.Run
import proofs.«119521_j8581344658003_1_alg».proof.Proof.Gen.ReferenceIdeal.Read
import proofs.«119521_j8581344658003_1_alg».proof.Proof.Gen.Pre_finite_inputs
import proofs.«119521_j8581344658003_1_alg».proof.Proof.Ends
import proofs.«119521_j8581344658003_1_alg».proof.Proof.KernelValue
import proofs.«119521_j8581344658003_1_alg».proof.Proof.Reference
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the network of the arguments in their result
    buffers: the kernel program by its run read back through its two regions, the reference by its run read one
    operation at a time. -/
theorem algebraic : Cert.algebraic_KernelIdeal_ReferenceIdeal := by
  intro m ρ m' ρ' _ hagree
  refine ⟨fun c => Cert.KernelIdeal.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Gcn.result_kernel m ρ c), (h c).2⟩)
      (Cert.KernelIdeal.Gcn.ends (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v30_eq, Cert.ReferenceIdeal.Gcn.result_ref, (hagree c).1, (hagree c).2.1,
      (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
